-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x512x512 .f32) (main_arg1 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_cst_2 : FVec F S_ .f32 := constant S_ .f32 0x00000000#32
  let main_v9 : FVec F S64x512x512 .f32 := broadcastInDim S64x512x512 ![] bcast_S_S64x512x512 main_cst_2
  let main_v10 : IVec S64x512x512 1 := cmpf .oge main_arg0 main_v9
  let main_c_3 : IVec S_ 1 := constantI S_ 1 1#1
  let main_v11 : IVec S_ 1 := (fun x v => Host.reduce IntOp.andi x v reducesTo_S64x512x512_S_d0_1_2 h_S_) main_v10 main_c_3
  let main_v12 : IVec S_ 1 := andi main_v8 main_v11
  let main_cst_4 : FVec F S_ .f32 := constant S_ .f32 0x00000000#32
  let main_v13 : FVec F S64x512x512 .f32 := broadcastInDim S64x512x512 ![] bcast_S_S64x512x512 main_cst_4
  let main_v14 : IVec S64x512x512 1 := cmpf .oge main_arg1 main_v13
  let main_c_5 : IVec S_ 1 := constantI S_ 1 1#1
  let main_v15 : IVec S_ 1 := (fun x v => Host.reduce IntOp.andi x v reducesTo_S64x512x512_S_d0_1_2 h_S_) main_v14 main_c_5
  fn_part1 (F := F) main_v12 main_v15
-- ==== Kernel.lean ====
abbrev S64x512x512 : Shape := ⟨3, ![64, 512, 512]⟩
abbrev S64x128 : Shape := ⟨2, ![64, 128]⟩
abbrev S8x512x512 : Shape := ⟨3, ![8, 512, 512]⟩
abbrev S8x128 : Shape := ⟨2, ![8, 128]⟩
abbrev S8x1x1 : Shape := ⟨3, ![8, 1, 1]⟩
abbrev S8x64x512 : Shape := ⟨3, ![8, 64, 512]⟩
abbrev S8x64 : Shape := ⟨2, ![8, 64]⟩
abbrev S8x64x1 : Shape := ⟨3, ![8, 64, 1]⟩
abbrev S8x1 : Shape := ⟨2, ![8, 1]⟩
abbrev S64x1 : Shape := ⟨2, ![64, 1]⟩
abbrev S64 : Shape := ⟨1, ![64]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x128, .f32⟩
  | .hbm, ⟨3, _⟩ => ⟨S64x1, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x128, .f32⟩
  | .local _ .vmem, ⟨5, _⟩ => ⟨S8x128, .f32⟩
  | .local _ .vmem, ⟨6, _⟩ => ⟨S8x1x1, .f32⟩
  | .local _ .vmem, ⟨7, _⟩ => ⟨S8x1x1, .f32⟩
  | .local _ .vmem, ⟨8, _⟩ => ⟨S8x1x1, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32 : BitVec 32 := 64#32
  let v26 : BitVec 32 := Scalar.muli arg7 c64_i32
  v26
def k0_off1 (k0_t1 : Fin k0_t1_loop.trips) : Fin 3 → Nat :=
  let c0_25 : Index := 0#32
  let c0_i32 : BitVec 32 := 0#32
  let c1_i32 : BitVec 32 := 1#32
  let arg7 : BitVec 32 := Scf.iv c0_i32 c1_i32 k0_t1
  let c64_i32 : BitVec 32 := 64#32
  let v26 : BitVec 32 := Scalar.muli arg7 c64_i32
  let v27 : BitVec 32 := v26
  let v28 : Index := Scalar.indexCast v27
  let c0_26 : Index := 0#32
  ![0, v28.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  h_S8x64x512 : 0 < S8x64x512.numel
  reduces_S8x64x512_S8x64 : S8x64x512.Reduces [2] S8x64
  shapeCasts_S8x64_S8x64x1 : S8x64.ShapeCasts S8x64x1
  reduces_S8x64x1_S8x1 : S8x64x1.Reduces [1] S8x1
  shapeCasts_S8x1_S8x1x1 : S8x1.ShapeCasts S8x1x1
  shapeCasts_S8x1x1_S8x1 : S8x1x1.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  reducesTo_S64_S_d0 : S64.ReducesTo [0] S_
  h_S_ : 0 < S_.numel
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S8x64x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩
abbrev S64x262144 : Shape := ⟨2, ![64, 262144]⟩
abbrev S64 : Shape := ⟨1, ![64]⟩
abbrev S64x1 : Shape := ⟨2, ![64, 1]⟩

abbrev nBuf : Space → Nat
  | .hbm => 29
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S_, .f32⟩
  | .hbm, ⟨3, _⟩ => ⟨S64x512x512, .f32⟩
  | .hbm, ⟨4, _⟩ => ⟨S64x512x512, .f32⟩
  | .hbm, ⟨5, _⟩ => ⟨S64x262144, .f32⟩
  | .hbm, ⟨6, _⟩ => ⟨S_, .f32⟩
  | .hbm, ⟨7, _⟩ => ⟨S64x512x512, .f32⟩
  | .hbm, ⟨8, _⟩ => ⟨S64x512x512, .f32⟩
  | .hbm, ⟨9, _⟩ => ⟨S64x262144, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S64x262144, .f32⟩
  | .hbm, ⟨14, _⟩ => ⟨S64x262144, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x262144, .f32⟩
  | .hbm, ⟨19, _⟩ => ⟨S64x262144, .f32⟩
  | .hbm, ⟨20, _⟩ => ⟨S64x262144, .f32⟩
  | .hbm, ⟨21, _⟩ => ⟨S64x262144, .f32⟩
  | .hbm, ⟨22, _⟩ => ⟨S64x262144, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  shapeCasts_S64x512x512_S64x262144 : S64x512x512.ShapeCasts S64x262144
  reducesTo_S64x262144_S64_d1 : S64x262144.ReducesTo [1] S64
  h_S_ : 0 < S_.numel
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  reducesTo_S64_S_d0 : S64.ReducesTo [0] S_

variable [Facts₀]

class Facts : Prop extends Facts₀ where

variable [Facts]
-- ==== Proof.KernelTotals.lean ====
/-
  The three running totals of the kernel body, read back from its scratch buffers.

  The body zeroes three buffers of shape [8,1,1], then visits the 512 rows of its two input blocks in 8 chunks of
  64 rows; chunk k adds to each buffer one number per sample: the chunk's sum of P, its sum of T, and its sum of
  T * log (T / P).  Every store covers its buffer whole, so what a buffer reads after n chunks is the update of
  chunk n-1 applied to what it read after n-1 chunks, starting from the zero fill.
-/
import proofs.«170253_j5927054868988_2_alg».proof.Proof.Gen.KernelIdeal.Frame
import Idealize.ShloMosaic.Lib.Pipeline.Value

set_option maxRecDepth 16384

noncomputable section

namespace Cert.KernelIdeal.Totals

open Idealize.ShloMosaic Idealize.ShloMosaic.TcCoe Idealize.ShloMosaic.Tactic
open Idealize.SL Idealize.SL.Sem
open Cert.KernelIdeal Cert.KernelIdeal.Gen

variable {F : FTy → Type} [FloatOps F]

/-- A load of a whole buffer, after a newest store that covered it whole, reads that store's values. -/
theorem readAt_newest_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.readAt Val (Rect.unit off S.size inb).toLoadRect (v.writes Val f (⟨Rect.unit off S.size inb, w⟩ :: L)) = w := by
  rw [View.readAt_eq_ld, View.read_writes_eq_canon v f _
    (fun y => ⟨_, List.mem_cons_self, View.mem_set_unit_zero h inb y⟩),
    View.canon_cons_unit_zero h inb, View.ld_unit_zero h inb]

/-- The offsets ![0,0,0] and ![0,0] are the zero offsets. -/
theorem zeros3 : (![0, 0, 0] : Fin 3 → Nat) = fun _ => 0 := by funext a; fin_cases a <;> rfl
theorem zeros2 : (![0, 0] : Fin 2 → Nat) = fun _ => 0 := by funext a; fin_cases a <;> rfl

section body

variable (𝒱 : Variants) (bd : Option 𝒱.V) (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x1x1 .f32) (harg4 : arg4.IsWhole) (arg5 : Memref sig .tc .vmem S8x1x1 .f32) (harg5 : arg5.IsWhole) (arg6 : Memref sig .tc .vmem S8x1x1 .f32) (harg6 : arg6.IsWhole)
variable (x0 x1 : Vec F S8x512x512 .f32)

/-- Rows 64k … 64k+63 of a block [8,512,512]: what chunk k loads. -/
abbrev chunkOf (k : Fin k0_t1_loop.trips) (x : Vec F S8x512x512 .f32) : Vec F S8x64x512 .f32 :=
  View.ld x (Rect.unit (k0_off1 k) S8x64x512.size (k0_off1_inb k))

/-- The pieces one chunk writes: each scratch buffer whole, at its update of what the chunk found there. -/
theorem tripL_eq (k : Fin k0_t1_loop.trips)
    (f4 : BufTy.Contents (Elt F) arg4.view.ty) (f5 : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 (harg1.unread x0) (harg2.unread x1) k f4 f5 f6
      = ([⟨Rect.unit ![0, 0, 0] S8x1x1.size inb_S8x1x1_S8x1x1_0_0_0,
            k0_pay4 (chunkOf k x0) (View.readAt (Elt F) arg4.view (Rect.unit ![0, 0, 0] S8x1x1.size inb_S8x1x1_S8x1x1_0_0_0).toLoadRect f4)⟩],
         [⟨Rect.unit ![0, 0, 0] S8x1x1.size inb_S8x1x1_S8x1x1_0_0_0,
            k0_pay9 (k0_pay5 (chunkOf k x1) (View.readAt (Elt F) arg5.view (Rect.unit ![0, 0, 0] S8x1x1.size inb_S8x1x1_S8x1x1_0_0_0).toLoadRect f5))⟩],
         [⟨Rect.unit ![0, 0, 0] S8x1x1.size inb_S8x1x1_S8x1x1_0_0_0,
            k0_pay10 (k0_pay3 (chunkOf k x0) (chunkOf k x1)) (View.readAt (Elt F) arg6.view (Rect.unit ![0, 0, 0] S8x1x1.size inb_S8x1x1_S8x1x1_0_0_0).toLoadRect f6)⟩]) := by
  unfold tripL_k0_t1 trip_k0_t1
  dsimp only
  sl_unfold_words
  simp only [View.readAt_eq_ld, harg1.read_unread, harg2.read_unread]
  rfl

/-- The zero fills the body starts with. -/
abbrev fill4 : BufTy.Contents (Elt F) arg4.view.ty :=
  arg4.view.writes (Elt F) arg4.view.junk [⟨Rect.unit ![0, 0, 0] S8x1x1.size inb_S8x1x1_S8x1x1_0_0_0, k0_pay6⟩]
abbrev fill5 : BufTy.Contents (Elt F) arg5.view.ty :=
  arg5.view.writes (Elt F) arg5.view.junk [⟨Rect.unit ![0, 0, 0] S8x1x1.size inb_S8x1x1_S8x1x1_0_0_0, k0_pay7⟩]
abbrev fill6 : BufTy.Contents (Elt F) arg6.view.ty :=
  arg6.view.writes (Elt F) arg6.view.junk [⟨Rect.unit ![0, 0, 0] S8x1x1.size inb_S8x1x1_S8x1x1_0_0_0, k0_pay8⟩]

/-- The pieces of the first n chunks, over the zero fills. -/
def piecesTo (n : ℕ) :=
  pb_k0_t1 (F := F) 𝒱 c bd i arg1 harg1 arg2 harg2 arg3 harg3 arg4 harg4 arg5 harg5 arg6 harg6 (harg1.unread x0) (harg2.unread x1)
    (fill4 (F := F) arg4) (fill5 (F := F) arg5) (fill6 (F := F) arg6) n

/-- What the three buffers read after n chunks. -/
def tot4 (n : ℕ) : Vec F S8x1x1 .f32 :=
  View.readAt (Elt F) arg4.view (Rect.unit ![0, 0, 0] S8x1x1.size inb_S8x1x1_S8x1x1_0_0_0).toLoadRect
    (arg4.view.writes (Elt F) (fill4 (F := F) arg4) (piecesTo 𝒱 bd c i arg1 harg1 arg2 harg2 arg3 harg3 arg4 harg4 arg5 harg5 arg6 harg6 x0 x1 n).1)
def tot5 (n : ℕ) : Vec F S8x1x1 .f32 :=
  View.readAt (Elt F) arg5.view (Rect.unit ![0, 0, 0] S8x1x1.size inb_S8x1x1_S8x1x1_0_0_0).toLoadRect
    (arg5.view.writes (Elt F) (fill5 (F := F) arg5) (piecesTo 𝒱 bd c i arg1 harg1 arg2 harg2 arg3 harg3 arg4 harg4 arg5 harg5 arg6 harg6 x0 x1 n).2.1)
def tot6 (n : ℕ) : Vec F S8x1x1 .f32 :=
  View.readAt (Elt F) arg6.view (Rect.unit ![0, 0, 0] S8x1x1.size inb_S8x1x1_S8x1x1_0_0_0).toLoadRect
    (arg6.view.writes (Elt F) (fill6 (F := F) arg6) (piecesTo 𝒱 bd c i arg1 harg1 arg2 harg2 arg3 harg3 arg4 harg4 arg5 harg5 arg6 harg6 x0 x1 n).2.2)

theorem tot4_zero : tot4 𝒱 bd c i arg1 harg1 arg2 harg2 arg3 harg3 arg4 harg4 arg5 harg5 arg6 harg6 x0 x1 0 = k0_pay6 := by
  unfold tot4 piecesTo; rw [pb_k0_t1.eq_1]
  dsimp only [View.writes_nil]
  exact readAt_newest_whole (Val := Elt F) _ _ zeros3 _ _ _
theorem tot5_zero : tot5 𝒱 bd c i arg1 harg1 arg2 harg2 arg3 harg3 arg4 harg4 arg5 harg5 arg6 harg6 x0 x1 0 = k0_pay7 := by
  unfold tot5 piecesTo; rw [pb_k0_t1.eq_1]
  dsimp only [View.writes_nil]
  exact readAt_newest_whole (Val := Elt F) _ _ zeros3 _ _ _
theorem tot6_zero : tot6 𝒱 bd c i arg1 harg1 arg2 harg2 arg3 harg3 arg4 harg4 arg5 harg5 arg6 harg6 x0 x1 0 = k0_pay8 := by
  unfold tot6 piecesTo; rw [pb_k0_t1.eq_1]
  dsimp only [View.writes_nil]
  exact readAt_newest_whole (Val := Elt F) _ _ zeros3 _ _ _

theorem tot4_succ (k : Fin k0_t1_loop.trips) :
    tot4 𝒱 bd c i arg1 harg1 arg2 harg2 arg3 harg3 arg4 harg4 arg5 harg5 arg6 harg6 x0 x1 (k.val + 1)
      = k0_pay4 (chunkOf k x0) (tot4 𝒱 bd c i arg1 harg1 arg2 harg2 arg3 harg3 arg4 harg4 arg5 harg5 arg6 harg6 x0 x1 k.val) := by
  unfold tot4 piecesTo
  rw [pb_k0_t1_succ, tripL_eq]
  dsimp only [List.cons_append, List.nil_append]
  exact readAt_newest_whole (Val := Elt F) _ _ zeros3 _ _ _
theorem tot5_succ (k : Fin k0_t1_loop.trips) :
    tot5 𝒱 bd c i arg1 harg1 arg2 harg2 arg3 harg3 arg4 harg4 arg5 harg5 arg6 harg6 x0 x1 (k.val + 1)
      = k0_pay9 (k0_pay5 (chunkOf k x1) (tot5 𝒱 bd c i arg1 harg1 arg2 harg2 arg3 harg3 arg4 harg4 arg5 harg5 arg6 harg6 x0 x1 k.val)) := by
  unfold tot5 piecesTo
  rw [pb_k0_t1_succ, tripL_eq]
  dsimp only [List.cons_append, List.nil_append]
  exact readAt_newest_whole (Val := Elt F) _ _ zeros3 _ _ _
theorem tot6_succ (k : Fin k0_t1_loop.trips) :
    tot6 𝒱 bd c i arg1 harg1 arg2 harg2 arg3 harg3 arg4 harg4 arg5 harg5 arg6 harg6 x0 x1 (k.val + 1)
      = k0_pay10 (k0_pay3 (chunkOf k x0) (chunkOf k x1)) (tot6 𝒱 bd c i arg1 harg1 arg2 harg2 arg3 harg3 arg4 harg4 arg5 harg5 arg6 harg6 x0 x1 k.val) := by
  unfold tot6 piecesTo
  rw [pb_k0_t1_succ, tripL_eq]
  dsimp only [List.cons_append, List.nil_append]
  exact readAt_newest_whole (Val := Elt F) _ _ zeros3 _ _ _

end body

section block

variable (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x1x1 .f32) (harg4 : arg4.IsWhole) (arg5 : Memref sig .tc .vmem S8x1x1 .f32) (harg5 : arg5.IsWhole) (arg6 : Memref sig .tc .vmem S8x1x1 .f32) (harg6 : arg6.IsWhole) (x0 x1 : Vec F S8x512x512 .f32)

/-- What the body leaves in the output block: the closing formula of the three totals after the last chunk. -/
theorem out_eq :
    out0_A_2 (F := F) c i arg1 harg1 arg2 harg2 arg3 harg3 arg4 harg4 arg5 harg5 arg6 harg6 x0 x1
      = k0_pay11 (tot6 Variants.none none c i arg1 harg1 arg2 harg2 arg3 harg3 arg4 harg4 arg5 harg5 arg6 harg6 x0 x1 k0_t1_loop.trips)
          (tot5 Variants.none none c i arg1 harg1 arg2 harg2 arg3 harg3 arg4 harg4 arg5 harg5 arg6 harg6 x0 x1 k0_t1_loop.trips)
          (tot4 Variants.none none c i arg1 harg1 arg2 harg2 arg3 harg3 arg4 harg4 arg5 harg5 arg6 harg6 x0 x1 k0_t1_loop.trips)
          (tot5 Variants.none none c i arg1 harg1 arg2 harg2 arg3 harg3 arg4 harg4 arg5 harg5 arg6 harg6 x0 x1 k0_t1_loop.trips) := by
  unfold out0_A_2 kernelRun0_A
  dsimp only
  sl_unfold_words
  rw [View.read_writes_eq_canon (Val := Elt F) _ _ _
    (fun y => ⟨_, List.mem_singleton_self _, View.mem_set_unit_zero zeros2 inb_S8x128_S8x128_0_0 y⟩), View.canon_unit_zero zeros2]
  unfold tot4 tot5 tot6 piecesTo
  simp only [View.writes_append]

end block

end Cert.KernelIdeal.Totals

end
-- ==== Proof.KernelBody.lean ====
/-
  The kernel body's arithmetic over the extended reals, entry by entry.

  A chunk [8,64,512] is summed lanes first (axis 2), the result stood up as a column [8,64,1], summed over its
  rows (axis 1) and stood up again as [8,1,1]: at sample b that is the double sum over the chunk's rows q and lanes l.
  With eps the shift both programs add, P = pred + eps and T = true + eps, the three updates add to a running total
  the chunk's Σ P, its Σ T and its Σ T * log (T / P), and the closing formula at (b, lane) is
  S / ST + log SP - log ST of the three totals at b.
-/
import proofs.«170253_j5927054868988_2_alg».proof.Proof.KernelTotals
import Idealize.ShloMosaic.PureOps.Ideal.Laws
import Idealize.ShloMosaic.Lib.Pipeline.Value
import Idealize.ShloMosaic.Lib.ValueIdx

set_option maxRecDepth 16384

noncomputable section

namespace Cert.KernelIdeal.BodyValue

open Idealize.ShloMosaic Idealize.ShloMosaic.ValueIdx
open Cert.KernelIdeal Cert.KernelIdeal.Gen Cert.KernelIdeal.Totals

/-- The shift both programs add to every entry: the f32 word nearest 1e-6, read exactly. -/
abbrev eps : EReal := Ideal.ofBits .f32 0x358637BD#32

/-- Where a lane sum of a block [8,64,512] reads its operand. -/
theorem lift_lane (h : S8x64x512.Reduces [2] S8x64) (b : Fin 8) (q : Fin 64) (l : Fin 512) :
    h.lift (ix2 b q) l = ix3 b q l := by
  funext a; apply Fin.ext; match a with | ⟨0, _⟩ => rfl | ⟨1, _⟩ => rfl | ⟨2, _⟩ => rfl

/-- Where a row sum of a column [8,64,1] reads its operand. -/
theorem lift_row (h : S8x64x1.Reduces [1] S8x1) (b : Fin 8) (z : Fin 1) (q : Fin 64) :
    h.lift (ix2 b z) q = ix3 b q z := by
  funext a; apply Fin.ext; match a with | ⟨0, _⟩ => rfl | ⟨1, _⟩ => rfl | ⟨2, _⟩ => rfl

/-- The sum of a block [8,64,512] over rows and lanes with both axes kept, read at sample b. -/
theorem keepdimsSum_apply (w : FVec Ideal S8x64x512 .f32)
    (h1 : S8x64x512.Reduces [2] S8x64) (c1 : S8x64.ShapeCasts S8x64x1)
    (h2 : S8x64x1.Reduces [1] S8x1) (c2 : S8x1.ShapeCasts S8x1x1)
    (hφ : FKind.Formats .f32) (hacc : (0x00000000#32 : BitVec 32) = FKind.add.neutral .f32 hφ) (b : Fin 8) :
    shapeCast S8x1x1 (multiReduction .add [1] S8x1
        (shapeCast S8x64x1 (multiReduction .add [2] S8x64 w 0x00000000#32 h1 hφ hacc) c1)
        0x00000000#32 h2 hφ hacc) c2 (ix3 b 0 0)
      = ∑ q : Fin 64, ∑ l : Fin 512, w (ix3 b q l) := by
  refine (shapeCast_apply _ c2 (ix3 b 0 0) (ix2 b 0) ?_).trans ?_
  · rw [Shape.rowMajor_val_two, Shape.rowMajor_val_three]
    show b.val * 1 + 0 = (b.val * 1 + 0) * 1 + 0
    omega
  refine (Ideal.multiReduction_add_single _ _ h2 hφ hacc (ix2 b 0)).trans ?_
  refine Finset.sum_congr rfl fun q _ => ?_
  rw [lift_row h2 b 0 q]
  refine (shapeCast_apply _ c1 (ix3 b q 0) (ix2 b q) ?_).trans ?_
  · rw [Shape.rowMajor_val_two, Shape.rowMajor_val_three]
    show b.val * 64 + q.val = (b.val * 64 + q.val) * 1 + 0
    omega
  refine (Ideal.multiReduction_add_single _ _ h1 hφ hacc (ix2 b q)).trans ?_
  refine Finset.sum_congr rfl fun l _ => ?_
  rw [lift_lane h1 b q l]

/-- Chunk k of a block at coordinates: row q of the chunk is row 64k+q of the block. -/
theorem chunkOf_apply (k : Fin k0_t1_loop.trips) (x : Vec Ideal S8x512x512 .f32) (b : Fin 8) (q : Fin 64) (l : Fin 512)
    (r : Fin 512) (hr : r.val = 64 * k.val + q.val) :
    chunkOf k x (ix3 b q l) = x (ix3 b r l) := by
  refine congrArg x (funext fun a => Fin.ext ?_)
  match a with
  | ⟨0, _⟩ => show k0_off1 k 0 + 1 * b.val = b.val; rw [k0_off1_eq]; simp
  | ⟨1, _⟩ => show k0_off1 k 1 + 1 * q.val = r.val; rw [k0_off1_eq, hr]; simp
  | ⟨2, _⟩ => show k0_off1 k 2 + 1 * l.val = l.val; rw [k0_off1_eq]; simp

/-! ## The payloads at an index -/

theorem pay1_apply (v : Vec Ideal S8x64x512 .f32) (j : S8x64x512.Idx) : k0_pay1 v j = v j + eps := rfl
theorem pay2_apply (v : Vec Ideal S8x64x512 .f32) (j : S8x64x512.Idx) : k0_pay2 v j = v j + eps := rfl

/-- The update of the P total: what was there plus the chunk's sum of P. -/
theorem pay4_apply (ch : Vec Ideal S8x64x512 .f32) (v : Vec Ideal S8x1x1 .f32) (b : Fin 8) :
    k0_pay4 ch v (ix3 b 0 0) = v (ix3 b 0 0) + ∑ q : Fin 64, ∑ l : Fin 512, (ch (ix3 b q l) + eps) := by
  unfold k0_pay4
  refine (congrFun (shapeCast_self _ _) _).trans ?_
  exact congrArg (v (ix3 b 0 0) + ·) (keepdimsSum_apply (k0_pay1 ch) _ _ _ _ _ _ b)

/-- The update of the T total. -/
theorem pay5_apply (ch : Vec Ideal S8x64x512 .f32) (v : Vec Ideal S8x1x1 .f32) (b : Fin 8) :
    k0_pay9 (k0_pay5 ch v) (ix3 b 0 0) = v (ix3 b 0 0) + ∑ q : Fin 64, ∑ l : Fin 512, (ch (ix3 b q l) + eps) := by
  unfold k0_pay9 k0_pay5
  refine (congrFun (shapeCast_self _ _) _).trans ?_
  exact congrArg (v (ix3 b 0 0) + ·) (keepdimsSum_apply (k0_pay2 ch) _ _ _ _ _ _ b)

/-- The update of the S total: what was there plus the chunk's sum of T * log (T / P). -/
theorem pay10_apply (c0 c1 : Vec Ideal S8x64x512 .f32) (v : Vec Ideal S8x1x1 .f32) (b : Fin 8) :
    k0_pay10 (k0_pay3 c0 c1) v (ix3 b 0 0)
      = v (ix3 b 0 0) + ∑ q : Fin 64, ∑ l : Fin 512,
          (c1 (ix3 b q l) + eps) * Ideal.log (Ideal.div (c1 (ix3 b q l) + eps) (c0 (ix3 b q l) + eps)) := by
  unfold k0_pay10 k0_pay3
  refine (congrFun (shapeCast_self _ _) _).trans ?_
  exact congrArg (v (ix3 b 0 0) + ·)
    (keepdimsSum_apply (mulf (k0_pay2 c1) (log (divf (k0_pay2 c1) (k0_pay1 c0)))) _ _ _ _ _ _ b)

/-- The closing formula at (b, lane): S / ST + log SP - log ST of the three totals at sample b. -/
theorem pay11_apply (v13 v14 v16 v19 : Vec Ideal S8x1x1 .f32) (b : Fin 8) (l : Fin 128) :
    k0_pay11 v13 v14 v16 v19 (ix2 b l)
      = Ideal.div (v13 (ix3 b 0 0)) (v14 (ix3 b 0 0)) + Ideal.log (v16 (ix3 b 0 0)) - Ideal.log (v19 (ix3 b 0 0)) := by
  unfold k0_pay11
  refine (broadcastTo_apply _ _ (ix2 b l) (ix2 b 0)
    (fun a => by match a with | ⟨0, _⟩ => rfl | ⟨1, _⟩ => rfl)).trans ?_
  refine (congrFun (shapeCast_self _ _) _).trans ?_
  refine (shapeCast_apply _ _ (ix2 b 0) (ix3 b 0 0) ?_).trans rfl
  rw [Shape.rowMajor_val_two, Shape.rowMajor_val_three]
  show (b.val * 1 + 0) * 1 + 0 = b.val * 1 + 0
  omega

theorem pay6_apply (j : S8x1x1.Idx) : k0_pay6 (F := Ideal) j = 0 := by
  unfold k0_pay6
  exact (congrFun (shapeCast_self _ _) _).trans Ideal.ofBits_zero_f32
theorem pay7_apply (j : S8x1x1.Idx) : k0_pay7 (F := Ideal) j = 0 := by
  unfold k0_pay7
  exact (congrFun (shapeCast_self _ _) _).trans Ideal.ofBits_zero_f32
theorem pay8_apply (j : S8x1x1.Idx) : k0_pay8 (F := Ideal) j = 0 := by
  unfold k0_pay8
  exact (congrFun (shapeCast_self _ _) _).trans Ideal.ofBits_zero_f32

end Cert.KernelIdeal.BodyValue

end
-- ==== Proof.KernelSample.lean ====
/-
  One sample's three totals after the last chunk, and the entry the body leaves in its output block.

  After n chunks the P total at sample b reads 0 plus the sum over the first n chunks of the chunk's sum of P, and
  likewise the T total and the total of T * log (T / P): each chunk adds its own sum to what it found, starting
  from the zero fill.  After the last chunk the output block at (b, lane) is S / ST + log SP - log ST.
-/
import proofs.«170253_j5927054868988_2_alg».proof.Proof.KernelBody

set_option maxRecDepth 16384

noncomputable section

namespace Cert.KernelIdeal.Sample

open Idealize.ShloMosaic Idealize.ShloMosaic.ValueIdx
open Cert.KernelIdeal Cert.KernelIdeal.Gen Cert.KernelIdeal.Totals Cert.KernelIdeal.BodyValue

/-- One chunk's sum of P = pred + eps at sample b. -/
def chunkSP (x0 : Vec Ideal S8x512x512 .f32) (k : Fin k0_t1_loop.trips) (b : Fin 8) : EReal :=
  ∑ q : Fin 64, ∑ l : Fin 512, (chunkOf k x0 (ix3 b q l) + eps)

/-- One chunk's sum of T * log (T / P) at sample b. -/
def chunkS (x0 x1 : Vec Ideal S8x512x512 .f32) (k : Fin k0_t1_loop.trips) (b : Fin 8) : EReal :=
  ∑ q : Fin 64, ∑ l : Fin 512,
    (chunkOf k x1 (ix3 b q l) + eps) * Ideal.log (Ideal.div (chunkOf k x1 (ix3 b q l) + eps) (chunkOf k x0 (ix3 b q l) + eps))

section

variable (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x1x1 .f32) (harg4 : arg4.IsWhole) (arg5 : Memref sig .tc .vmem S8x1x1 .f32) (harg5 : arg5.IsWhole) (arg6 : Memref sig .tc .vmem S8x1x1 .f32) (harg6 : arg6.IsWhole) (x0 x1 : Vec Ideal S8x512x512 .f32)

theorem tot4_apply (n : ℕ) (hn : n ≤ k0_t1_loop.trips) (b : Fin 8) :
    tot4 Variants.none none c i arg1 harg1 arg2 harg2 arg3 harg3 arg4 harg4 arg5 harg5 arg6 harg6 x0 x1 n (ix3 b 0 0)
      = 0 + ∑ k : Fin n, chunkSP x0 ⟨k.val, lt_of_lt_of_le k.isLt hn⟩ b := by
  induction n with
  | zero => rw [tot4_zero, pay6_apply]; simp
  | succ n ih =>
    have hn' : n < k0_t1_loop.trips := hn
    rw [tot4_succ Variants.none none c i arg1 harg1 arg2 harg2 arg3 harg3 arg4 harg4 arg5 harg5 arg6 harg6 x0 x1 ⟨n, hn'⟩, pay4_apply, ih (le_of_lt hn'), add_assoc]
    refine congrArg (0 + ·) ?_
    exact (Fin.sum_univ_castSucc
      (fun k : Fin (n + 1) => chunkSP x0 ⟨k.val, lt_of_lt_of_le k.isLt hn⟩ b)).symm

theorem tot5_apply (n : ℕ) (hn : n ≤ k0_t1_loop.trips) (b : Fin 8) :
    tot5 Variants.none none c i arg1 harg1 arg2 harg2 arg3 harg3 arg4 harg4 arg5 harg5 arg6 harg6 x0 x1 n (ix3 b 0 0)
      = 0 + ∑ k : Fin n, chunkSP x1 ⟨k.val, lt_of_lt_of_le k.isLt hn⟩ b := by
  induction n with
  | zero => rw [tot5_zero, pay7_apply]; simp
  | succ n ih =>
    have hn' : n < k0_t1_loop.trips := hn
    rw [tot5_succ Variants.none none c i arg1 harg1 arg2 harg2 arg3 harg3 arg4 harg4 arg5 harg5 arg6 harg6 x0 x1 ⟨n, hn'⟩, pay5_apply, ih (le_of_lt hn'), add_assoc]
    refine congrArg (0 + ·) ?_
    exact (Fin.sum_univ_castSucc
      (fun k : Fin (n + 1) => chunkSP x1 ⟨k.val, lt_of_lt_of_le k.isLt hn⟩ b)).symm

theorem tot6_apply (n : ℕ) (hn : n ≤ k0_t1_loop.trips) (b : Fin 8) :
    tot6 Variants.none none c i arg1 harg1 arg2 harg2 arg3 harg3 arg4 harg4 arg5 harg5 arg6 harg6 x0 x1 n (ix3 b 0 0)
      = 0 + ∑ k : Fin n, chunkS x0 x1 ⟨k.val, lt_of_lt_of_le k.isLt hn⟩ b := by
  induction n with
  | zero => rw [tot6_zero, pay8_apply]; simp
  | succ n ih =>
    have hn' : n < k0_t1_loop.trips := hn
    rw [tot6_succ Variants.none none c i arg1 harg1 arg2 harg2 arg3 harg3 arg4 harg4 arg5 harg5 arg6 harg6 x0 x1 ⟨n, hn'⟩, pay10_apply, ih (le_of_lt hn'), add_assoc]
    refine congrArg (0 + ·) ?_
    exact (Fin.sum_univ_castSucc
      (fun k : Fin (n + 1) => chunkS x0 x1 ⟨k.val, lt_of_lt_of_le k.isLt hn⟩ b)).symm

/-- The entry of the output block at (b, lane): the closing formula of the three totals over all the chunks. -/
theorem block_apply (b : Fin 8) (l : Fin 128) :
    out0_A_2 (F := Ideal) c i arg1 harg1 arg2 harg2 arg3 harg3 arg4 harg4 arg5 harg5 arg6 harg6 x0 x1 (ix2 b l)
      = Ideal.div (0 + ∑ k, chunkS x0 x1 k b) (0 + ∑ k, chunkSP x1 k b)
        + Ideal.log (0 + ∑ k, chunkSP x0 k b) - Ideal.log (0 + ∑ k, chunkSP x1 k b) := by
  rw [out_eq, pay11_apply, tot6_apply _ _ _ _ _ _ _ _ _ _ _ _ _ _ x0 x1 _ le_rfl, tot5_apply _ _ _ _ _ _ _ _ _ _ _ _ _ _ x0 x1 _ le_rfl,
    tot4_apply _ _ _ _ _ _ _ _ _ _ _ _ _ _ x0 x1 _ le_rfl]

end

/-! ## The same entry over the whole argument arrays -/

/-- Row q of chunk k of a sample's table. -/
def rowOf (k : Fin k0_t1_loop.trips) (q : Fin 64) : Fin 512 :=
  ⟨64 * k.val + q.val, by have := k.isLt; have := k0_t1_abs.2.1; have := q.isLt; omega⟩

/-- One sample's value as the kernel takes it: with P = pred + eps and T = true + eps summed chunk by chunk from the
    zero word, (Σ T log (T/P)) / Σ T + log Σ P - log Σ T. -/
def kerSample (a0 a1 : S64x512x512.Idx → EReal) (s : Fin 64) : EReal :=
  Ideal.div
      (0 + ∑ k : Fin k0_t1_loop.trips, ∑ q : Fin 64, ∑ l : Fin 512,
        (a1 (ix3 s (rowOf k q) l) + eps)
          * Ideal.log (Ideal.div (a1 (ix3 s (rowOf k q) l) + eps) (a0 (ix3 s (rowOf k q) l) + eps)))
      (0 + ∑ k : Fin k0_t1_loop.trips, ∑ q : Fin 64, ∑ l : Fin 512, (a1 (ix3 s (rowOf k q) l) + eps))
    + Ideal.log (0 + ∑ k : Fin k0_t1_loop.trips, ∑ q : Fin 64, ∑ l : Fin 512, (a0 (ix3 s (rowOf k q) l) + eps))
    - Ideal.log (0 + ∑ k : Fin k0_t1_loop.trips, ∑ q : Fin 64, ∑ l : Fin 512, (a1 (ix3 s (rowOf k q) l) + eps))

/-- When row b of the two input blocks is sample s of the two arrays, the block's entries in row b are sample s's value. -/
theorem block_eq_kerSample (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x1x1 .f32) (harg4 : arg4.IsWhole) (arg5 : Memref sig .tc .vmem S8x1x1 .f32) (harg5 : arg5.IsWhole) (arg6 : Memref sig .tc .vmem S8x1x1 .f32) (harg6 : arg6.IsWhole)
    (x0 x1 : Vec Ideal S8x512x512 .f32) (a0 a1 : S64x512x512.Idx → EReal) (b : Fin 8) (s : Fin 64)
    (h0 : ∀ r l, x0 (ix3 b r l) = a0 (ix3 s r l)) (h1 : ∀ r l, x1 (ix3 b r l) = a1 (ix3 s r l)) (l : Fin 128) :
    out0_A_2 (F := Ideal) c i arg1 harg1 arg2 harg2 arg3 harg3 arg4 harg4 arg5 harg5 arg6 harg6 x0 x1 (ix2 b l) = kerSample a0 a1 s := by
  have e0 : ∀ k q l, chunkOf k x0 (ix3 b q l) = a0 (ix3 s (rowOf k q) l) :=
    fun k q l => (chunkOf_apply k x0 b q l (rowOf k q) rfl).trans (h0 _ _)
  have e1 : ∀ k q l, chunkOf k x1 (ix3 b q l) = a1 (ix3 s (rowOf k q) l) :=
    fun k q l => (chunkOf_apply k x1 b q l (rowOf k q) rfl).trans (h1 _ _)
  have hSP0 : ∀ k, chunkSP x0 k b = ∑ q : Fin 64, ∑ l : Fin 512, (a0 (ix3 s (rowOf k q) l) + eps) := fun k => by
    unfold chunkSP
    exact Finset.sum_congr rfl fun q _ => Finset.sum_congr rfl fun l _ => by rw [e0]
  have hSP1 : ∀ k, chunkSP x1 k b = ∑ q : Fin 64, ∑ l : Fin 512, (a1 (ix3 s (rowOf k q) l) + eps) := fun k => by
    unfold chunkSP
    exact Finset.sum_congr rfl fun q _ => Finset.sum_congr rfl fun l _ => by rw [e1]
  have hS : ∀ k, chunkS x0 x1 k b = ∑ q : Fin 64, ∑ l : Fin 512,
      (a1 (ix3 s (rowOf k q) l) + eps)
        * Ideal.log (Ideal.div (a1 (ix3 s (rowOf k q) l) + eps) (a0 (ix3 s (rowOf k q) l) + eps)) := fun k => by
    unfold chunkS
    exact Finset.sum_congr rfl fun q _ => Finset.sum_congr rfl fun l _ => by rw [e0, e1]
  rw [block_apply]
  unfold kerSample
  simp only [hSP0, hSP1, hS]

end Cert.KernelIdeal.Sample

end
-- ==== Proof.KernelArray.lean ====
/-
  The kernel's result array and the number the host makes of it.

  Grid point t stages rows 8t … 8t+7 of both arguments (one sample per row of the block) and writes back rows
  8t … 8t+7 of the [64,128] result: row s of the result holds sample s's value in every lane.  The eight blocks
  tile the result, so after the run the whole array is that function of the arguments.  The host then takes
  lane 0 of every row, sums the 64 values from the zero word and divides by 64.
-/
import proofs.«170253_j5927054868988_2_alg».proof.Proof.KernelSample
import Idealize.ShloMosaic.Lib.StableHlo.Run

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Sample

variable (m : (ℓ : Loc nD τ sig) → Buf (Elt Ideal) ℓ) (ρ : Dev nD → PrngReg)

/-- Where each window's block sits at point t: block row t of both arguments and of the result. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row b of the first argument's block at point t is sample 8t + b of the argument. -/
theorem iblk0_apply (c : Dev nD) (t : Fin cfg0.N) (b : Fin 8) (r l : Fin 512) (s : Fin 64) (hs : s.val = 8 * t.val + b.val) :
    (iblk m c 0 t : Vec Ideal S8x512x512 .f32) (ix3 b r l)
      = (m ((c : Thread nD τ).loc main_arg0) : S64x512x512.Idx → EReal) (ix3 s r l) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 8 + 1 * b.val = s.val; rw [e0, hs]; omega
  | ⟨1, _⟩ => show win0_0.index t 1 * 512 + 1 * r.val = r.val; rw [e1]; omega
  | ⟨2, _⟩ => show win0_0.index t 2 * 512 + 1 * l.val = l.val; rw [e2]; omega

/-- The same of the second argument. -/
theorem iblk1_apply (c : Dev nD) (t : Fin cfg0.N) (b : Fin 8) (r l : Fin 512) (s : Fin 64) (hs : s.val = 8 * t.val + b.val) :
    (iblk m c 1 t : Vec Ideal S8x512x512 .f32) (ix3 b r l)
      = (m ((c : Thread nD τ).loc main_arg1) : S64x512x512.Idx → EReal) (ix3 s r l) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t 0 * 8 + 1 * b.val = s.val; rw [e0, hs]; omega
  | ⟨1, _⟩ => show win0_1.index t 1 * 512 + 1 * r.val = r.val; rw [e1]; omega
  | ⟨2, _⟩ => show win0_1.index t 2 * 512 + 1 * l.val = l.val; rw [e2]; omega

/-- The result array after the run: row s holds sample s's value in every lane. -/
def resultArray (c : Dev nD) : S64x128.Idx → EReal := fun i =>
  kerSample (m ((c : Thread nD τ).loc main_arg0)) (m ((c : Thread nD τ).loc main_arg1)) (i 0)

/-- What point t writes back is block t of that array. -/
theorem flushed_eq (c : Dev nD) (t : Fin cfg0.N) :
    (dats m 0 c).flushed 2 t = ((cfg0.win 2).blk t).view.read (Elt Ideal) (resultArray m c) := by
  show (cfg0.win 2).cut (grid0.coords t) ((dats m 0 c).after 2 t) = _
  rw [after0_2]
  funext j
  obtain ⟨b, l, rfl⟩ : ∃ (b : Fin 8) (l : Fin 128), j = ix2 b l := ⟨j 0, j 1, eq_ix2 j⟩
  obtain ⟨-, -, -, -, -, -, e0, -⟩ := idx_facts t
  have hN : cfg0.N = 8 := N_0
  have hs : 8 * t.val + b.val < 64 := by have := t.isLt; have := b.isLt; omega
  show outsAt0 m c t (ix2 b l) = resultArray m c (((cfg0.win 2).blk t).view.emb (ix2 b l))
  unfold outsAt0
  rw [block_eq_kerSample c _ _ _ _ _ _ _ _ _ _ _ _ _ (iblk m c 0 t) (iblk m c 1 t)
    (m ((c : Thread nD τ).loc main_arg0)) (m ((c : Thread nD τ).loc main_arg1)) b ⟨8 * t.val + b.val, hs⟩
    (fun r l => iblk0_apply m c t b r l _ rfl) (fun r l => iblk1_apply m c t b r l _ rfl) l]
  unfold resultArray
  congr 1
  apply Fin.ext
  show 8 * t.val + b.val = win0_2.index t 0 * 8 + 1 * b.val
  rw [e0]; omega

/-- An index of the result is in point t's block iff each coordinate is in the block's range on its axis. -/
theorem mem_blk (t : Fin cfg0.N) (i : S64x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The eight blocks tile the result, so it ends holding `resultArray`: row i is in the block of point i / 8. -/
theorem final (c : Dev nD) : (dats m 0 c).arrAt 2 cfg0.N = resultArray m c :=
  (dats m 0 c).arrAt_eq_of_cover 2 (resultArray m c) (fun t _ => flushed_eq m c t) fun i => by
    have hi0 : (i 0).val < 64 := (i 0).isLt
    have hi1 : (i 1).val < 128 := (i 1).isLt
    have hN : cfg0.N = 8 := N_0
    have ht : (i 0).val / 8 < cfg0.N := by omega
    obtain ⟨-, -, -, -, -, -, e0, e1⟩ := idx_facts ⟨(i 0).val / 8, ht⟩
    refine ⟨⟨(i 0).val / 8, ht⟩, flush0_2 _, ?_⟩
    rw [mem_blk]
    intro a
    match a with
    | ⟨0, _⟩ =>
      show win0_2.index ⟨(i 0).val / 8, ht⟩ 0 * 8 ≤ (i 0).val ∧ (i 0).val < win0_2.index ⟨(i 0).val / 8, ht⟩ 0 * 8 + 8
      rw [e0]; show (i 0).val / 8 * 8 ≤ (i 0).val ∧ (i 0).val < (i 0).val / 8 * 8 + 8; omega
    | ⟨1, _⟩ =>
      show win0_2.index ⟨(i 0).val / 8, ht⟩ 1 * 128 ≤ (i 1).val ∧ (i 1).val < win0_2.index ⟨(i 0).val / 8, ht⟩ 1 * 128 + 128
      rw [e1]; omega

/-- The kernel's result: the samples' values summed from the zero word, divided by the word of 64. -/
def kerResult (a0 a1 : S64x512x512.Idx → EReal) : S_.Idx → EReal := fun _ =>
  Ideal.div (0 + ∑ j : S64.Idx, kerSample a0 a1 (j 0)) (Ideal.ofBits .f32 0x42800000#32)

/-- The lines after the region: lane 0 of every row of the result array, summed from the zero word, divided by 64. -/
theorem tail_eq (c : Dev nD) :
    Pipeline.afterTail₀ cfgs (dats m) 0 (V0 m) [hostOps1] c main_v4
      = kerResult (m ((c : Thread nD τ).loc main_arg0)) (m ((c : Thread nD τ).loc main_arg1)) := by
  unfold Pipeline.afterTail₀
  show StableHlo.after hostOps1 _ (Proc.devRef .tc main_v4) = _
  after_results
  have hY : Pipeline.withArrays (cfgs 0).spec c (V0 m c) (fun w => (dats m 0 c).arrAt w (cfgs 0).N)
      (Proc.tc.devRef main_v0) = resultArray m c :=
    (Pipeline.withArrays_arr spec0 launch0.win.arr_inj c _ _ 2).trans (final m c)
  rw [hY]
  funext z
  unfold kerResult
  refine congrArg₂ Ideal.div ?_ rfl
  simp only [Host.reduceAdd, Ideal.hostReduceAdd_def]
  rw [Ideal.hostReduceAdd_total reducesTo_S64_S_d0 (fun b => b.elim0) _ _ z]
  refine congrArg₂ (· + ·) Ideal.ofBits_zero_f32 ?_
  apply Finset.sum_congr rfl
  intro j _
  show shapeCast S64 (extractStridedSlice S64x1 ![0, 0] (resultArray m c) slices_S64x128_S64x1_0_0) shapeCasts_S64x1_S64 j = _
  refine (shapeCast_apply _ _ j (ix2 (j 0) 0) ?_).trans ?_
  · rw [Shape.rowMajor_val_two, Shape.rowMajor_val_one]
    show (j 0).val * 1 + 0 = (j 0).val
    omega
  refine (extractStridedSlice_apply _ _ _ (ix2 (j 0) 0) (ix2 (j 0) 0) (fun a => ?_)).trans rfl
  match a with
  | ⟨0, _⟩ => show (j 0).val = 0 + (j 0).val; omega
  | ⟨1, _⟩ => rfl

/-- The kernel's run, its result named: every weakly fair execution ends with the result at `kerResult` of the
    arguments and the arguments unchanged. -/
theorem run : θ_run defs (onTc (τ := τ) (main (F := Ideal))) ⟨m, fun _ => 0, ρ⟩ fun r => ∀ c : Dev nD,
    r.2.mem ((c.tc : Thread nD τ).loc main_v4)
        = kerResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefValue.lean ====
/-
  The reference, entry by entry over the extended reals.

  The reference shifts both maps by eps, flattens each sample's 512 x 512 table to a row of 262144 entries
  (entry k sits in row k / 512 and column k mod 512), divides each row by its own total, and for each sample sums
  tn * log (tn / pn) over the row, each sum taken from the zero word; the result is the sum over the 64 samples
  divided by 64.
-/
import proofs.«170253_j5927054868988_2_alg».proof.Proof.Gen.ReferenceIdeal.Read
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read

/-- The shift both programs add to every entry. -/
abbrev eps : EReal := Ideal.ofBits .f32 0x358637BD#32

/-- Sample s of the first map, shifted and flattened, at position k. -/
def flatP (x0 : (⟨S64x512x512, .f32⟩ : BufTy).Contents (Elt Ideal)) (s : Fin 64) (k : Fin 262144) : EReal :=
  val_main_v2 (F := Ideal) x0 (ix2 s k)
/-- Sample s of the second map, shifted and flattened, at position k. -/
def flatT (x1 : (⟨S64x512x512, .f32⟩ : BufTy).Contents (Elt Ideal)) (s : Fin 64) (k : Fin 262144) : EReal :=
  val_main_v5 (F := Ideal) x1 (ix2 s k)

/-- Position k = c + 512 r of a flattened sample is entry (r, c) of its table. -/
theorem flat_idx (s : Fin 64) (k : Fin 262144) (r c : Fin 512) (hk : k.val = c.val + 512 * r.val) :
    idx_main_v2 (ix2 s k) = ix3 s r c := by
  funext a; apply Fin.ext
  have hs := s.isLt; have hkk := k.isLt; have hr := r.isLt; have hc := c.isLt
  match a with
  | ⟨0, _⟩ => show (s.val * 262144 + k.val) / 262144 = s.val; omega
  | ⟨1, _⟩ => show (s.val * 262144 + k.val) / 512 % 512 = r.val; omega
  | ⟨2, _⟩ => show (s.val * 262144 + k.val) % 512 = c.val; omega

theorem flatP_apply (x0 : (⟨S64x512x512, .f32⟩ : BufTy).Contents (Elt Ideal)) (s : Fin 64) (k : Fin 262144)
    (r c : Fin 512) (hk : k.val = c.val + 512 * r.val) : flatP x0 s k = x0 (ix3 s r c) + eps := by
  unfold flatP
  rw [val_main_v2_apply, val_main_v1_apply, val_main_v0_apply, val_main_cst_apply, flat_idx s k r c hk]
  rfl

theorem flatT_apply (x1 : (⟨S64x512x512, .f32⟩ : BufTy).Contents (Elt Ideal)) (s : Fin 64) (k : Fin 262144)
    (r c : Fin 512) (hk : k.val = c.val + 512 * r.val) : flatT x1 s k = x1 (ix3 s r c) + eps := by
  unfold flatT
  rw [val_main_v5_apply, val_main_v4_apply, val_main_v3_apply, val_main_cst_0_apply]
  rw [show idx_main_v5 (ix2 s k) = ix3 s r c from flat_idx s k r c hk]
  rfl

/-- One sample's value as the reference takes it: with tn = T / (0 + Σ T) and pn = P / (0 + Σ P) over the flattened
    row, 0 + Σ tn * log (tn / pn). -/
def refSample (x0 x1 : (⟨S64x512x512, .f32⟩ : BufTy).Contents (Elt Ideal)) (s : Fin 64) : EReal :=
  0 + ∑ k : Fin 262144,
    Ideal.div (flatT x1 s k) (0 + ∑ k' : Fin 262144, flatT x1 s k')
      * Ideal.log (Ideal.div (Ideal.div (flatT x1 s k) (0 + ∑ k' : Fin 262144, flatT x1 s k'))
          (Ideal.div (flatP x0 s k) (0 + ∑ k' : Fin 262144, flatP x0 s k')))

/-- A row's total, as the reference copies it back along the row. -/
theorem totalT_apply (x1 : (⟨S64x512x512, .f32⟩ : BufTy).Contents (Elt Ideal)) (s : Fin 64) (k : Fin 262144) :
    val_main_v12 (F := Ideal) x1 (ix2 s k) = 0 + ∑ k' : Fin 262144, flatT x1 s k' := by
  rw [val_main_v12_apply, val_main_v11_apply, val_main_v10_apply]
  refine congrArg₂ (· + ·) Ideal.ofBits_zero_f32 ?_
  apply Finset.sum_congr rfl
  intro k' _
  unfold flatT
  refine congrArg _ (funext fun a => Fin.ext ?_)
  match a with | ⟨0, _⟩ => rfl | ⟨1, _⟩ => rfl

theorem totalP_apply (x0 : (⟨S64x512x512, .f32⟩ : BufTy).Contents (Elt Ideal)) (s : Fin 64) (k : Fin 262144) :
    val_main_v8 (F := Ideal) x0 (ix2 s k) = 0 + ∑ k' : Fin 262144, flatP x0 s k' := by
  rw [val_main_v8_apply, val_main_v7_apply, val_main_v6_apply]
  refine congrArg₂ (· + ·) Ideal.ofBits_zero_f32 ?_
  apply Finset.sum_congr rfl
  intro k' _
  unfold flatP
  refine congrArg _ (funext fun a => Fin.ext ?_)
  match a with | ⟨0, _⟩ => rfl | ⟨1, _⟩ => rfl

/-- The reference's per-sample sum is `refSample`. -/
theorem sample_apply (x0 x1 : (⟨S64x512x512, .f32⟩ : BufTy).Contents (Elt Ideal)) (s : Fin 64) :
    val_main_v17 (F := Ideal) x0 x1 (ix1 s) = refSample x0 x1 s := by
  rw [val_main_v17_apply]
  unfold refSample
  refine congrArg₂ (· + ·) Ideal.ofBits_zero_f32 ?_
  apply Finset.sum_congr rfl
  intro k _
  have i17 : idx_main_v17 (ix1 s) k = ix2 s k := by
    funext a; apply Fin.ext; match a with | ⟨0, _⟩ => rfl | ⟨1, _⟩ => rfl
  rw [i17, val_main_v16_apply, val_main_v15_apply, val_main_v14_apply, val_main_v13_apply, val_main_v9_apply,
    totalT_apply, totalP_apply]
  simp only [Ideal.mulf_def, Ideal.hostUnary_log_def, Ideal.hostDivf_def, flatT, flatP]

/-- The reference's result: the sum of the samples' values from the zero word, divided by 64. -/
theorem result_apply (x0 x1 : (⟨S64x512x512, .f32⟩ : BufTy).Contents (Elt Ideal)) :
    val_main_v19 (F := Ideal) x0 x1
      = fun _ => Ideal.div (0 + ∑ j : S64.Idx, refSample x0 x1 (j 0)) (Ideal.ofBits .f32 0x42800000#32) := by
  funext z
  rw [val_main_v19_apply, val_main_v18_apply]
  refine congrArg₂ Ideal.div (congrArg₂ (· + ·) Ideal.ofBits_zero_f32 ?_) rfl
  apply Finset.sum_congr rfl
  intro j _
  obtain ⟨s, rfl⟩ : ∃ s : Fin 64, j = ix1 s := ⟨j 0, eq_ix1 j⟩
  exact sample_apply x0 x1 s

end Cert.ReferenceIdeal.RefValue

end
-- ==== Proof.KLSpec.lean ====
/-
  The quantity both programs compute for one sample, and the law that joins their two forms.

  For positive reals P j, T j over a finite nonempty index set, write SP = Σ P, ST = Σ T.  The divergence of the
  normalised T from the normalised P,
      Σ_j (T j / ST) * log ((T j / ST) / (P j / SP)),
  equals
      (Σ_j T j * log (T j / P j)) / ST + log SP - log ST,
  because log ((T/ST)/(P/SP)) = log (T/P) + log SP - log ST for positive arguments and Σ_j T j / ST = 1.
  Both steps need positivity: over all extended reals the two forms differ (a logarithm of a negative total).

  The second half evaluates the extended-real operations on real arguments: a quotient by a nonzero real and a
  logarithm of a positive real are the real quotient and logarithm, and a finite sum of reals is the real sum.
-/
import Idealize.ShloMosaic.PureOps.Ideal
import Idealize.ShloMosaic.Lib.ValueIdx

noncomputable section

namespace Cert.KLSpec

open Idealize.ShloMosaic

variable {J : Type*} [Fintype J]

/-- The divergence of the normalisations, each map divided by its own total first. -/
def klNorm (P T : J → ℝ) : ℝ :=
  ∑ j, (T j / ∑ j', T j') * Real.log ((T j / ∑ j', T j') / (P j / ∑ j', P j'))

/-- The same number from three totals: Σ T log (T/P), Σ T and Σ P. -/
def klSplit (P T : J → ℝ) : ℝ :=
  (∑ j, T j * Real.log (T j / P j)) / (∑ j, T j) + Real.log (∑ j, P j) - Real.log (∑ j, T j)

theorem klNorm_eq_klSplit [Nonempty J] (P T : J → ℝ) (hP : ∀ j, 0 < P j) (hT : ∀ j, 0 < T j) :
    klNorm P T = klSplit P T := by
  have hSP : 0 < ∑ j, P j := Finset.sum_pos (fun j _ => hP j) Finset.univ_nonempty
  have hST : 0 < ∑ j, T j := Finset.sum_pos (fun j _ => hT j) Finset.univ_nonempty
  unfold klNorm klSplit
  have hterm : ∀ j, (T j / ∑ j', T j') * Real.log ((T j / ∑ j', T j') / (P j / ∑ j', P j'))
      = (T j * Real.log (T j / P j)) / (∑ j', T j')
        + (T j / ∑ j', T j') * (Real.log (∑ j', P j') - Real.log (∑ j', T j')) := by
    intro j
    have hq : (T j / ∑ j', T j') / (P j / ∑ j', P j') = (T j / P j) * ((∑ j', P j') / ∑ j', T j') := by
      have := (hP j).ne'; have := hSP.ne'; have := hST.ne'
      field_simp
    rw [hq, Real.log_mul (div_pos (hT j) (hP j)).ne' (div_pos hSP hST).ne', Real.log_div hSP.ne' hST.ne']
    ring
  rw [Finset.sum_congr rfl (fun j _ => hterm j), Finset.sum_add_distrib, ← Finset.sum_div, ← Finset.sum_mul,
    ← Finset.sum_div, div_self hST.ne']
  ring

/-! ## The extended-real operations on real arguments -/

/-- A finite sum of reals, as an extended real, is the sum of the extended reals. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The quotient of a real by a nonzero real. -/
theorem div_real (x y : ℝ) (hy : y ≠ 0) : Ideal.div (x : EReal) (y : EReal) = ((x / y : ℝ) : EReal) := by
  rw [Ideal.div_coe hy, ← EReal.coe_mul, mul_one_div]

/-- The logarithm of a positive real. -/
theorem log_real (x : ℝ) (hx : 0 < x) : Ideal.log (x : EReal) = ((Real.log x : ℝ) : EReal) := by
  rw [Ideal.log_coe, if_neg (not_le.mpr hx)]

/-- The reference's form on real entries: each map over the zero word plus its total, then the sum of the products. -/
theorem norm_form [Nonempty J] (P T : J → ℝ) (hP : ∀ j, 0 < P j) (hT : ∀ j, 0 < T j) :
    (0 : EReal) + ∑ j, Ideal.div (T j : EReal) (0 + ∑ j', (T j' : EReal))
        * Ideal.log (Ideal.div (Ideal.div (T j : EReal) (0 + ∑ j', (T j' : EReal)))
            (Ideal.div (P j : EReal) (0 + ∑ j', (P j' : EReal))))
      = ((klNorm P T : ℝ) : EReal) := by
  have hSP : 0 < ∑ j, P j := Finset.sum_pos (fun j _ => hP j) Finset.univ_nonempty
  have hST : 0 < ∑ j, T j := Finset.sum_pos (fun j _ => hT j) Finset.univ_nonempty
  have eT : (0 : EReal) + ∑ j', (T j' : EReal) = ((∑ j', T j' : ℝ) : EReal) := by rw [zero_add, coe_sum]
  have eP : (0 : EReal) + ∑ j', (P j' : EReal) = ((∑ j', P j' : ℝ) : EReal) := by rw [zero_add, coe_sum]
  unfold klNorm
  rw [eT, eP, zero_add]
  conv_rhs => rw [coe_sum]
  apply Finset.sum_congr rfl
  intro j _
  rw [div_real _ _ hST.ne', div_real _ _ hSP.ne', div_real _ _ (div_pos (hP j) hSP).ne',
    log_real _ (div_pos (div_pos (hT j) hST) (div_pos (hP j) hSP)), ← EReal.coe_mul]

/-- The kernel's form on real totals. -/
theorem split_form (S SP ST : ℝ) (hSP : 0 < SP) (hST : 0 < ST) :
    Ideal.div (S : EReal) (ST : EReal) + Ideal.log (SP : EReal) - Ideal.log (ST : EReal)
      = ((S / ST + Real.log SP - Real.log ST : ℝ) : EReal) := by
  rw [div_real _ _ hST.ne', log_real _ hSP, log_real _ hST, ← EReal.coe_add, ← EReal.coe_sub]

/-! ## Two ways of visiting a 512 x 512 table -/

/-- The 512 rows visited in N = 8 chunks of 64: row (k, q) is row 64k + q. -/
theorem sum_chunks {M : Type*} [AddCommMonoid M] (N : ℕ) (hN : N = 8) (f : Fin 512 → M)
    (row : Fin N → Fin 64 → Fin 512) (hrow : ∀ k q, (row k q).val = 64 * k.val + q.val) :
    ∑ k, ∑ q, f (row k q) = ∑ r, f r := by
  subst hN
  rw [← Fintype.sum_prod_type' (f := fun k q => f (row k q))]
  refine Fintype.sum_equiv (finProdFinEquiv (m := 8) (n := 64)) _ _ fun x => congrArg f (Fin.ext ?_)
  rw [hrow]
  show 64 * x.1.val + x.2.val = x.2.val + 64 * x.1.val
  omega

/-- The table's 262144 entries visited as one list: entry j sits in row j / 512 and column j mod 512. -/
theorem sum_flat {M : Type*} [AddCommMonoid M] (F : Fin 512 → Fin 512 → M) (g : Fin 262144 → M)
    (hg : ∀ (j : Fin 262144) (r c : Fin 512), j.val = c.val + 512 * r.val → g j = F r c) :
    ∑ j, g j = ∑ r, ∑ c, F r c := by
  rw [← Fintype.sum_prod_type' (f := F)]
  exact (Fintype.sum_equiv (finProdFinEquiv (m := 512) (n := 512)) _ _ fun x => (hg _ x.1 x.2 rfl).symm).symm

end Cert.KLSpec

end
-- ==== Proof.KLConsts.lean ====
/-
  The shift both programs add to every entry, as the real its word denotes: the f32 nearest 1e-6, exactly
  8796093 / 2^43, a positive number.
-/
import Idealize.ShloMosaic.PureOps.Ideal

noncomputable section

namespace Cert.KLConsts

open Idealize.ShloMosaic

/-- The shift as a real number. -/
def epsR : ℝ := 8796093 * (2 : ℝ) ^ (-43 : ℤ)

theorem epsR_pos : 0 < epsR := by unfold epsR; positivity

/-- The word of the shift denotes it. -/
theorem ofBits_eps : Ideal.ofBits .f32 0x358637BD#32 = ((epsR : ℝ) : EReal) := by
  unfold epsR
  simp [Ideal.ofBits, Ideal.ieee, -EReal.coe_mul] <;> norm_num

end Cert.KLConsts

end
-- ==== Proof.Bridge.lean ====
/-
  The two programs agree on nonnegative real inputs, sample by sample.

  With both maps real and nonnegative, P = pred + eps and T = true + eps are positive reals, every total is a
  positive real, and both per-sample forms are real numbers.  The kernel's form is (Σ T log (T/P)) / Σ T + log Σ P
  - log Σ T with the 512 rows visited in 8 chunks of 64; the reference's is the divergence of the normalisations
  over the flattened table.  Re-indexing both to sums over rows and columns, the law of the specification joins them.
-/
import proofs.«170253_j5927054868988_2_alg».proof.Proof.KernelSample
import proofs.«170253_j5927054868988_2_alg».proof.Proof.RefValue
import proofs.«170253_j5927054868988_2_alg».proof.Proof.KLSpec
import proofs.«170253_j5927054868988_2_alg».proof.Proof.KLConsts

set_option maxRecDepth 16384

noncomputable section

namespace Cert.Bridge

open Idealize.ShloMosaic Idealize.ShloMosaic.ValueIdx
open Cert.KLSpec Cert.KLConsts

/-- The index type of both arguments. -/
abbrev Idx3 := (⟨3, ![64, 512, 512]⟩ : Shape).Idx

section reals

variable (p t : Idx3 → ℝ)

/-- Sample s's shifted tables, as reals. -/
def tabP (s : Fin 64) (r c : Fin 512) : ℝ := p (ix3 s r c) + epsR
def tabT (s : Fin 64) (r c : Fin 512) : ℝ := t (ix3 s r c) + epsR

/-- Sample s's value from its three totals over rows and columns. -/
def value (s : Fin 64) : ℝ :=
  (∑ r, ∑ c, tabT t s r c * Real.log (tabT t s r c / tabP p s r c)) / (∑ r, ∑ c, tabT t s r c)
    + Real.log (∑ r, ∑ c, tabP p s r c) - Real.log (∑ r, ∑ c, tabT t s r c)

variable {p t} (hp : ∀ i, 0 ≤ p i) (ht : ∀ i, 0 ≤ t i)
include hp in
theorem tabP_pos (s : Fin 64) (r c : Fin 512) : 0 < tabP p s r c := add_pos_of_nonneg_of_pos (hp _) epsR_pos
include ht in
theorem tabT_pos (s : Fin 64) (r c : Fin 512) : 0 < tabT t s r c := add_pos_of_nonneg_of_pos (ht _) epsR_pos

/-- A total over the table is positive when every entry is. -/
theorem total_pos (f : Fin 512 → Fin 512 → ℝ) (hf : ∀ r c, 0 < f r c) : 0 < ∑ r, ∑ c, f r c :=
  Finset.sum_pos (fun r _ => Finset.sum_pos (fun c _ => hf r c) Finset.univ_nonempty) Finset.univ_nonempty

/-- A shifted entry of a real map is the real shifted entry. -/
theorem shift_coe (x : ℝ) : ((x : ℝ) : EReal) + Ideal.ofBits .f32 0x358637BD#32 = ((x + epsR : ℝ) : EReal) := by
  rw [ofBits_eps, ← EReal.coe_add]

/-! ## The kernel's form on real inputs -/

open Cert.KernelIdeal.Sample (rowOf kerSample)
open Cert.KernelIdeal.BodyValue (eps)

/-- The body's loop makes 8 trips. -/
theorem trips_eq : Cert.KernelIdeal.k0_t1_loop.trips = 8 := rfl

/-- A total the kernel takes chunk by chunk from the zero word, on real entries, is the real total over the table. -/
theorem chunked_total (f : Fin 512 → Fin 512 → ℝ)
    (g : Fin Cert.KernelIdeal.k0_t1_loop.trips → Fin 64 → Fin 512 → EReal)
    (hg : ∀ k q l, g k q l = ((f (rowOf k q) l : ℝ) : EReal)) :
    (0 : EReal) + ∑ k, ∑ q, ∑ l, g k q l = ((∑ r, ∑ c, f r c : ℝ) : EReal) := by
  have h := sum_chunks (M := ℝ) _ trips_eq (fun r => ∑ c, f r c) rowOf (fun k q => rfl)
  rw [zero_add, ← h]
  simp only [coe_sum, hg]

include hp ht in
/-- The kernel's per-sample form on nonnegative real maps. -/
theorem ker_real (a0 a1 : Idx3 → EReal) (h0 : ∀ i, a0 i = ((p i : ℝ) : EReal)) (h1 : ∀ i, a1 i = ((t i : ℝ) : EReal))
    (s : Fin 64) : kerSample a0 a1 s = ((value p t s : ℝ) : EReal) := by
  have eT := chunked_total (tabT t s) (fun k q l => a1 (ix3 s (rowOf k q) l) + eps)
    (fun k q l => by rw [h1]; exact shift_coe _)
  have eP := chunked_total (tabP p s) (fun k q l => a0 (ix3 s (rowOf k q) l) + eps)
    (fun k q l => by rw [h0]; exact shift_coe _)
  have eS := chunked_total (fun r c => tabT t s r c * Real.log (tabT t s r c / tabP p s r c))
    (fun k q l => (a1 (ix3 s (rowOf k q) l) + eps)
      * Ideal.log (Ideal.div (a1 (ix3 s (rowOf k q) l) + eps) (a0 (ix3 s (rowOf k q) l) + eps)))
    (fun k q l => by
      rw [h0, h1, shift_coe, shift_coe]
      show ((tabT t s (rowOf k q) l : ℝ) : EReal)
          * Ideal.log (Ideal.div ((tabT t s (rowOf k q) l : ℝ) : EReal) ((tabP p s (rowOf k q) l : ℝ) : EReal)) = _
      rw [div_real _ _ (tabP_pos hp s _ _).ne', log_real _ (div_pos (tabT_pos ht s _ _) (tabP_pos hp s _ _)),
        ← EReal.coe_mul])
  unfold kerSample value
  rw [eS, eT, eP]
  exact split_form _ _ _ (total_pos _ (tabP_pos hp s)) (total_pos _ (tabT_pos ht s))

/-! ## The reference's form on real inputs -/

open Cert.ReferenceIdeal.RefValue (refSample flatP flatT flatP_apply flatT_apply)

/-- Row and column of a position of the flattened table. -/
def rowF (k : Fin 262144) : Fin 512 := ⟨k.val / 512, by have := k.isLt; omega⟩
def colF (k : Fin 262144) : Fin 512 := ⟨k.val % 512, by omega⟩

theorem flat_pos (k : Fin 262144) : k.val = (colF k).val + 512 * (rowF k).val := by
  show k.val = k.val % 512 + 512 * (k.val / 512)
  omega

instance : Nonempty (Fin 262144) := ⟨⟨0, by norm_num⟩⟩

/-- A total over the flattened table is the total over rows and columns. -/
theorem flat_total (f : Fin 512 → Fin 512 → ℝ) : ∑ k : Fin 262144, f (rowF k) (colF k) = ∑ r, ∑ c, f r c :=
  sum_flat f _ (fun j r c hj => by
    have hr : rowF j = r := Fin.ext (by show j.val / 512 = r.val; have := c.isLt; omega)
    have hc : colF j = c := Fin.ext (by show j.val % 512 = c.val; have := c.isLt; omega)
    rw [hr, hc])

include hp ht in
/-- The reference's per-sample form on nonnegative real maps. -/
theorem ref_real (x0 x1 : (⟨Cert.ReferenceIdeal.S64x512x512, .f32⟩ : BufTy).Contents (Elt Ideal))
    (h0 : ∀ i, x0 i = ((p i : ℝ) : EReal)) (h1 : ∀ i, x1 i = ((t i : ℝ) : EReal)) (s : Fin 64) :
    refSample x0 x1 s = ((value p t s : ℝ) : EReal) := by
  have fP : ∀ k, flatP x0 s k = ((tabP p s (rowF k) (colF k) : ℝ) : EReal) := fun k => by
    rw [flatP_apply x0 s k _ _ (flat_pos k), h0]; exact shift_coe _
  have fT : ∀ k, flatT x1 s k = ((tabT t s (rowF k) (colF k) : ℝ) : EReal) := fun k => by
    rw [flatT_apply x1 s k _ _ (flat_pos k), h1]; exact shift_coe _
  unfold refSample
  simp only [fP, fT]
  rw [norm_form (fun k => tabP p s (rowF k) (colF k)) (fun k => tabT t s (rowF k) (colF k))
      (fun k => tabP_pos hp s _ _) (fun k => tabT_pos ht s _ _),
    klNorm_eq_klSplit _ _ (fun k => tabP_pos hp s _ _) (fun k => tabT_pos ht s _ _)]
  unfold klSplit value
  rw [flat_total (fun r c => tabT t s r c * Real.log (tabT t s r c / tabP p s r c)), flat_total (tabT t s),
    flat_total (tabP p s)]

end reals

/-- On maps whose every entry is a nonnegative real the two programs give every sample the same value. -/
theorem sample_eq (a0 a1 : Idx3 → EReal) (h0 : ∀ i, ∃ r : ℝ, 0 ≤ r ∧ a0 i = (r : EReal))
    (h1 : ∀ i, ∃ r : ℝ, 0 ≤ r ∧ a1 i = (r : EReal)) (s : Fin 64) :
    Cert.ReferenceIdeal.RefValue.refSample a0 a1 s = Cert.KernelIdeal.Sample.kerSample a0 a1 s := by
  choose p hp hpe using h0
  choose t ht hte using h1
  rw [ref_real hp ht a0 a1 hpe hte s, ker_real hp ht a0 a1 hpe hte s]

end Cert.Bridge

end
-- ==== Proof.PreFacts.lean ====
/-
  What the precondition says of the inputs: every entry of both maps is a nonnegative real number.

  The precondition is four reductions by "and" over all entries: |x| < +inf and x >= 0, of each input.  An extended
  real whose absolute value is below +inf and that is at least 0 is neither infinity, so it is a real, and that real
  is nonnegative.
-/
import proofs.«170253_j5927054868988_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Cert.Pre_finite_inputs

instance : Subsingleton S_.Idx := ⟨fun a b => funext fun d => d.elim0⟩

/-- The word 0x7F800000 is +inf. -/
theorem ofBits_inf : Ideal.ofBits .f32 0x7F800000#32 = ⊤ := by simp [Ideal.ofBits, Ideal.ieee]

theorem lt_of_cmp (x y : EReal) (h : Ideal.cmp .olt x y = 1#1) : x < y := by
  by_contra hn
  simp [Ideal.cmp, hn] at h

theorem le_of_cmp (x y : EReal) (h : Ideal.cmp .oge x y = 1#1) : y ≤ x := by
  by_contra hn
  simp [Ideal.cmp, hn] at h

/-- An extended real below +inf in absolute value and at least 0 is a nonnegative real. -/
theorem real_of_bounds (x : EReal) (h1 : max x (-x) < ⊤) (h2 : (0 : EReal) ≤ x) : ∃ r : ℝ, 0 ≤ r ∧ x = (r : EReal) := by
  have hx1 : x ≠ ⊤ := fun e => by rw [e] at h1; simp at h1
  have hx2 : x ≠ ⊥ := fun e => by rw [e] at h2; simp at h2
  exact ⟨x.toReal, EReal.toReal_nonneg h2, (EReal.coe_toReal hx1 hx2).symm⟩

/-- One entry: from the two comparisons that hold of it. -/
theorem entry_real (x : EReal)
    (f1 : Ideal.cmp .olt (max x (-x)) (Ideal.ofBits .f32 0x7F800000#32) = 1#1)
    (f2 : Ideal.cmp .oge x (Ideal.ofBits .f32 0x00000000#32) = 1#1) : ∃ r : ℝ, 0 ≤ r ∧ x = (r : EReal) := by
  have h1 := lt_of_cmp _ _ f1
  have h2 := le_of_cmp _ _ f2
  rw [ofBits_inf] at h1
  rw [Ideal.ofBits_zero_f32] at h2
  exact real_of_bounds x h1 h2

/-- Under the precondition every entry of both inputs is a nonnegative real. -/
theorem entries_real (a0 a1 : FVec Ideal S64x512x512 .f32) (h : fn (F := Ideal) a0 a1 = fun _ => 1#1) :
    (∀ i, ∃ r : ℝ, 0 ≤ r ∧ a0 i = (r : EReal)) ∧ (∀ i, ∃ r : ℝ, 0 ≤ r ∧ a1 i = (r : EReal)) := by
  have e := congrFun h ValueIdx.ix0
  dsimp only [fn, fn_part1] at e
  change IntOp.andi _ _ = 1#1 at e
  obtain ⟨e12, e15⟩ := IntOp.andi_eq_one.1 e
  change IntOp.andi _ _ = 1#1 at e12
  obtain ⟨e8, e11⟩ := IntOp.andi_eq_one.1 e12
  change IntOp.andi _ _ = 1#1 at e8
  obtain ⟨e3, e7⟩ := IntOp.andi_eq_one.1 e8
  refine ⟨fun i => ?_, fun i => ?_⟩
  · exact entry_real (a0 i) (Host.reduce_andi_all _ _ _ _ _ e3 i) (Host.reduce_andi_all _ _ _ _ _ e11 i)
  · exact entry_real (a1 i) (Host.reduce_andi_all _ _ _ _ _ e7 i) (Host.reduce_andi_all _ _ _ _ _ e15 i)

end Cert.PreFacts

end
-- ==== Proof.lean ====
/-
  The claim: the kernel and its idealization run and keep their arguments, the idealization rewrote nothing, and
  at the extended reals the idealized kernel and the idealized reference end with the same result on inputs that
  are finite and nonnegative.

  The kernel's result is the mean over the 64 samples of (Σ T log (T/P)) / Σ T + log Σ P - log Σ T, with P = pred + eps
  and T = true + eps summed over each sample's 512 x 512 table; the reference's is the mean of the divergence of the
  tables divided by their own totals.  On nonnegative real maps every entry of P and T is a positive real, the
  logarithm of a product splits and Σ T / Σ T = 1, so the two per-sample values are one real number; the two means
  are then the same extended real.  Outside that domain the two forms differ (the logarithm of a negative total),
  which is why the precondition asks for nonnegative maps.
-/
import proofs.«170253_j5927054868988_2_alg».proof.Defs
import proofs.«170253_j5927054868988_2_alg».proof.Proof.Gen.Kernel
import proofs.«170253_j5927054868988_2_alg».proof.Proof.Gen.Kernel.Frame
import proofs.«170253_j5927054868988_2_alg».proof.Proof.Gen.KernelIdeal
import proofs.«170253_j5927054868988_2_alg».proof.Proof.Gen.KernelIdeal.Frame
import proofs.«170253_j5927054868988_2_alg».proof.Proof.Gen.ReferenceIdeal
import proofs.«170253_j5927054868988_2_alg».proof.Proof.Gen.ReferenceIdeal.Run
import proofs.«170253_j5927054868988_2_alg».proof.Proof.Gen.ReferenceIdeal.Read
import proofs.«170253_j5927054868988_2_alg».proof.Proof.Gen.Pre_finite_inputs
import proofs.«170253_j5927054868988_2_alg».proof.Proof.KernelArray
import proofs.«170253_j5927054868988_2_alg».proof.Proof.RefValue
import proofs.«170253_j5927054868988_2_alg».proof.Proof.Bridge
import proofs.«170253_j5927054868988_2_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the kernel's mean: the kernel's by its run, the reference's because under the precondition every
    entry is a nonnegative real and then each sample's two values agree. -/
theorem algebraic : Cert.algebraic_KernelIdeal_ReferenceIdeal := by
  intro m ρ m' ρ' hpre hagree
  refine ⟨fun c => Cert.KernelIdeal.ArrayValue.kerResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.result_apply,
    (hagree c).1, (hagree c).2]
  obtain ⟨r0, r1⟩ := Cert.PreFacts.entries_real _ _ (hpre c)
  funext z
  unfold Cert.KernelIdeal.ArrayValue.kerResult
  refine congrArg₂ Ideal.div (congrArg (0 + ·) ?_) rfl
  apply Finset.sum_congr rfl
  intro j _
  exact Cert.Bridge.sample_eq _ _ r0 r1 _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
